-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x12x1024x512 : Shape := ⟨4, ![4, 12, 1024, 512]⟩
abbrev S1024x1024 : Shape := ⟨2, ![1024, 1024]⟩
abbrev S512x512 : Shape := ⟨2, ![512, 512]⟩
abbrev S512 : Shape := ⟨1, ![512]⟩
abbrev S_ : Shape := ⟨0, ![]⟩

class Facts : Prop where
  bcast_S_S4x12x1024x512 : S_.BroadcastsInDim S4x12x1024x512 (![] : Fin 0 → Fin S4x12x1024x512.rank)
  reducesTo_S4x12x1024x512_S_d0_1_2_3 : S4x12x1024x512.ReducesTo [0, 1, 2, 3] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S4x12x1024x512 .f32) (main_arg1 : FVec F S1024x1024 .f32) (main_arg2 : FVec F S512x512 .f32) (main_arg3 : FVec F S512 .f32) : IVec S_ 1 :=
  let main_v0 : FVec F S4x12x1024x512 .f32 := Host.absf main_arg0
  let main_cst : FVec F S_ .f32 := constant S_ .f32 0x7F800000#32
  let main_v1 : FVec F S4x12x1024x512 .f32 := broadcastInDim S4x12x1024x512 ![] bcast_S_S4x12x1024x512 main_cst
  let main_v2 : IVec S4x12x1024x512 1 := cmpf .olt main_v0 main_v1
  let main_c : IVec S_ 1 := constantI S_ 1 1#1
  let main_v3 : IVec S_ 1 := (fun x v => Host.reduce IntOp.andi x v reducesTo_S4x12x1024x512_S_d0_1_2_3 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S4x12x1024x512 : Shape := ⟨4, ![4, 12, 1024, 512]⟩
abbrev S1024x1024 : Shape := ⟨2, ![1024, 1024]⟩
abbrev S512x512 : Shape := ⟨2, ![512, 512]⟩
abbrev S512 : Shape := ⟨1, ![512]⟩
abbrev S48x1024x512 : Shape := ⟨3, ![48, 1024, 512]⟩
abbrev S1x512 : Shape := ⟨2, ![1, 512]⟩
abbrev S4x1024x512 : Shape := ⟨3, ![4, 1024, 512]⟩
abbrev S1x1024x512 : Shape := ⟨3, ![1, 1024, 512]⟩
abbrev S1024x512 : Shape := ⟨2, ![1024, 512]⟩
abbrev S4096x512 : Shape := ⟨2, ![4096, 512]⟩

abbrev nBuf : Space → Nat
  | .hbm => 10
  | .vmem => 7
  | .smem => 0
  | _ => 0

abbrev bufTy : (tb : Table) → Fin (tcTables nBuf tb) → BufTy
  | .hbm, ⟨0, _⟩ => ⟨S4x12x1024x512, .f32⟩
  | .hbm, ⟨1, _⟩ => ⟨S1024x1024, .f32⟩
  | .hbm, ⟨2, _⟩ => ⟨S512x512, .f32⟩
  | .hbm, ⟨3, _⟩ => ⟨S512, .f32⟩
  | .hbm, ⟨4, _⟩ => ⟨S48x1024x512, .f32⟩
  | .hbm, ⟨5, _⟩ => ⟨S1024x1024, .bf16⟩
  | .hbm, ⟨6, _⟩ => ⟨S512x512, .bf16⟩
  | .hbm, ⟨7, _⟩ => ⟨S1x512, .f32⟩
  | .hbm, ⟨8, _⟩ => ⟨S48x1024x512, .f32⟩
  | .hbm, ⟨9, _⟩ => ⟨S4x12x1024x512, .f32⟩
  | .local _ .vmem, ⟨0, _⟩ => ⟨S4x1024x512, .f32⟩
  | .local _ .vmem, ⟨1, _⟩ => ⟨S4x1024x512, .f32⟩
  | .local _ .vmem, ⟨2, _⟩ => ⟨S1024x1024, .bf16⟩
  | .local _ .vmem, ⟨3, _⟩ => ⟨S512x512, .bf16⟩
  | .local _ .vmem, ⟨4, _⟩ => ⟨S1x512, .f32⟩
  | .local _ .vmem, ⟨5, _⟩ => ⟨S4x1024x512, .f32⟩
  | .local _ .vmem, ⟨6, _⟩ => ⟨S4x1024x512, .f32⟩
  | _, _ => ⟨S4x12x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S4x12x1024x512_S48x1024x512 : S4x12x1024x512.ShapeCasts S48x1024x512
  bitsLt_bf16_f32 : FTy.bits .bf16 < FTy.bits .f32
  shapeCasts_S512_S1x512 : S512.ShapeCasts S1x512
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S4x1024x512_S1x1024x512_0_0_0 : ∀ a, (![0, 0, 0] : Fin 3 → Nat) a + S1x1024x512.size a ≤ S4x1024x512.size a
  h_S1x1024x512 : 0 < S1x1024x512.numel
  shapeCasts_S1x1024x512_S1024x512 : S1x1024x512.ShapeCasts S1024x512
  inb_S4x1024x512_S1x1024x512_1_0_0 : ∀ a, (![1, 0, 0] : Fin 3 → Nat) a + S1x1024x512.size a ≤ S4x1024x512.size a
  inb_S4x1024x512_S1x1024x512_2_0_0 : ∀ a, (![2, 0, 0] : Fin 3 → Nat) a + S1x1024x512.size a ≤ S4x1024x512.size a
  inb_S4x1024x512_S1x1024x512_3_0_0 : ∀ a, (![3, 0, 0] : Fin 3 → Nat) a + S1x1024x512.size a ≤ S4x1024x512.size a
  concatenates_S1024x512_S1024x512_S1024x512_S1024x512_S4096x512_d0 : Shape.Concatenates [S1024x512, S1024x512, S1024x512, S1024x512] S4096x512 0
  inb_S512x512_S512x512_0_0 : ∀ a, (![0, 0] : Fin 2 → Nat) a + S512x512.size a ≤ S512x512.size a
  h_S512x512 : 0 < S512x512.numel
  shapeCasts_S512x512_S512x512 : S512x512.ShapeCasts S512x512
  slices_S4096x512_o0_0_S1024x512 : S4096x512.Slices ![0, 0] S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  shapeCasts_S1024x512_S1x1024x512 : S1024x512.ShapeCasts S1x1024x512
  slices_S4096x512_o1024_0_S1024x512 : S4096x512.Slices ![1024, 0] S1024x512
  slices_S4096x512_o2048_0_S1024x512 : S4096x512.Slices ![2048, 0] S1024x512
  slices_S4096x512_o3072_0_S1024x512 : S4096x512.Slices ![3072, 0] S1024x512
  shapeCasts_S48x1024x512_S4x12x1024x512 : S48x1024x512.ShapeCasts S4x12x1024x512
  dot_S1024x1024_S1024x512_S1024x512_1_0_0_1_n_n_wf : DotDims.WF S1024x1024 S1024x512 S1024x512 [1] [0] [0] [1] [] []
  dot_S4096x512_S512x512_S4096x512_1_0_0_1_n_n_wf : DotDims.WF S4096x512 S512x512 S4096x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x1024x512.size a ≤ S48x1024x512.size a
  hwx0_0 : ∀ i : grid0.Coords, EltTy.bits .f32 = 32 ∨ (Rect.block (s := S48x1024x512) S4x1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x1024x512.size a ≤ S48x1024x512.size a
  hwx0_4 : ∀ i : grid0.Coords, EltTy.bits .f32 = 32 ∨ (Rect.block (s := S48x1024x512) S4x1024x512.size (cc0_transform_4 i) (hinb0_4 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf

abbrev win0_0 : Pipeline.Window sig grid0 :=
  Pipeline.Window.ofSpec (Memref.whole main_v0) S4x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S4x1024x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x12x1024x512 : Shape := ⟨4, ![4, 12, 1024, 512]⟩
abbrev S1024x1024 : Shape := ⟨2, ![1024, 1024]⟩
abbrev S512x512 : Shape := ⟨2, ![512, 512]⟩
abbrev S512 : Shape := ⟨1, ![512]⟩
abbrev S1024x512x4x12 : Shape := ⟨4, ![1024, 512, 4, 12]⟩
abbrev S1024x24576 : Shape := ⟨2, ![1024, 24576]⟩
abbrev S49152x512 : Shape := ⟨2, ![49152, 512]⟩
abbrev S1x512 : Shape := ⟨2, ![1, 512]⟩

abbrev nBuf : Space → Nat
  | .hbm => 15
  | .vmem => 0
  | .smem => 0
  | _ => 0

abbrev bufTy : (tb : Table) → Fin (tcTables nBuf tb) → BufTy
  | .hbm, ⟨0, _⟩ => ⟨S4x12x1024x512, .f32⟩
  | .hbm, ⟨1, _⟩ => ⟨S1024x1024, .f32⟩
  | .hbm, ⟨2, _⟩ => ⟨S512x512, .f32⟩
  | .hbm, ⟨3, _⟩ => ⟨S512, .f32⟩
  | .hbm, ⟨4, _⟩ => ⟨S1024x512x4x12, .f32⟩
  | .hbm, ⟨5, _⟩ => ⟨S1024x24576, .f32⟩
  | .hbm, ⟨6, _⟩ => ⟨S1024x24576, .f32⟩
  | .hbm, ⟨7, _⟩ => ⟨S1024x512x4x12, .f32⟩
  | .hbm, ⟨8, _⟩ => ⟨S4x12x1024x512, .f32⟩
  | .hbm, ⟨9, _⟩ => ⟨S49152x512, .f32⟩
  | .hbm, ⟨10, _⟩ => ⟨S49152x512, .f32⟩
  | .hbm, ⟨11, _⟩ => ⟨S1x512, .f32⟩
  | .hbm, ⟨12, _⟩ => ⟨S49152x512, .f32⟩
  | .hbm, ⟨13, _⟩ => ⟨S49152x512, .f32⟩
  | .hbm, ⟨14, _⟩ => ⟨S4x12x1024x512, .f32⟩
  | _, _ => ⟨S4x12x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]

class Facts₀ : Prop where
  transposes_S4x12x1024x512_S1024x512x4x12_2_3_0_1 : S4x12x1024x512.Transposes [2, 3, 0, 1] S1024x512x4x12
  shapeCasts_S1024x512x4x12_S1024x24576 : S1024x512x4x12.ShapeCasts S1024x24576
  shapeCasts_S1024x24576_S1024x512x4x12 : S1024x24576.ShapeCasts S1024x512x4x12
  transposes_S1024x512x4x12_S4x12x1024x512_2_3_0_1 : S1024x512x4x12.Transposes [2, 3, 0, 1] S4x12x1024x512
  shapeCasts_S4x12x1024x512_S49152x512 : S4x12x1024x512.ShapeCasts S49152x512
  bcast_S512_S1x512_1 : S512.BroadcastsInDim S1x512 (![1] : Fin 1 → Fin S1x512.rank)
  bcast_S1x512_S49152x512_0_1 : S1x512.BroadcastsInDim S49152x512 (![0, 1] : Fin 2 → Fin S49152x512.rank)
  shapeCasts_S49152x512_S4x12x1024x512 : S49152x512.ShapeCasts S4x12x1024x512
  dot_S1024x1024_S1024x24576_S1024x24576_1_0_0_1_n_n_wf : DotDims.WF S1024x1024 S1024x24576 S1024x24576 [1] [0] [0] [1] [] []
  dot_S49152x512_S512x512_S49152x512_1_0_0_1_n_n_wf : DotDims.WF S49152x512 S512x512 S49152x512 [1] [0] [0] [1] [] []

variable [Facts₀]

def dot_S1024x1024_S1024x24576_S1024x24576_1_0_0_1_n_n : DotDims S1024x1024 S1024x24576 S1024x24576 where
  lhsContracting := [1]
  rhsContracting := [0]
  lhsNonContracting := [0]
  rhsNonContracting := [1]
  lhsBatch := []
  rhsBatch := []
  wf := dot_S1024x1024_S1024x24576_S1024x24576_1_0_0_1_n_n_wf
def dot_S49152x512_S512x512_S49152x512_1_0_0_1_n_n : DotDims S49152x512 S512x512 S49152x512 where
  lhsContracting := [1]
  rhsContracting := [0]
  lhsNonContracting := [0]
  rhsNonContracting := [1]
  lhsBatch := []
  rhsBatch := []
  wf := dot_S49152x512_S512x512_S49152x512_1_0_0_1_n_n_wf

class Facts : Prop extends Facts₀ where

variable [Facts]
-- ==== Proof.Layer.lean ====
/-
  The graph-convolution layer as ONE function of its four arguments, index by index, on the extended reals.

  For node features `X[b, t, k, d]`, a (normalized) adjacency `A[n, k]`, weights `W[d, h]` and a bias `b[h]`
  the layer is
      out[b, t, n, h] = (∑ d, (∑ k, A[n, k] · X[b, t, k, d]) · W[d, h]) + b[h] :
  the adjacency mixes the nodes of every (b, t) slice, the weights then mix the features, and the bias is added last.
  Both programs of this certificate compute exactly this nested sum — the inner sum over the nodes `k` FIRST, the outer
  sum over the features `d` SECOND, each product with the same left and right factor — so no law of the extended reals
  beyond reading the operations at an index is needed, and finiteness of the inputs is never used.

  Three spellings of the same sum are stated here, over literal shapes:
  `layer` on the natural layout [4, 12, 1024, 512] (what both programs return), `sliceLayer` on the 48 = 4 · 12
  slices laid along one axis [48, 1024, 512] (what the kernel's grid walks over, four slices per step), and
  `blockLayer` on one block of four slices [4, 1024, 512] (what one grid step computes).
-/
import Idealize.ShloMosaic.PureOps.Ideal
import Idealize.ShloMosaic.Lib.ValueIdx

noncomputable section

namespace Cert.Layer

open Idealize.ShloMosaic Idealize.ShloMosaic.ValueIdx

/-- The natural layout (batch, time, node, feature). -/
abbrev SNat : Shape := ⟨4, ![4, 12, 1024, 512]⟩
/-- The 48 slices along one axis. -/
abbrev SSlices : Shape := ⟨3, ![48, 1024, 512]⟩
/-- One block of four slices. -/
abbrev SBlock : Shape := ⟨3, ![4, 1024, 512]⟩
/-- The adjacency. -/
abbrev SAdj : Shape := ⟨2, ![1024, 1024]⟩
/-- The weights. -/
abbrev SWt : Shape := ⟨2, ![512, 512]⟩
/-- The bias as a vector, and as one row. -/
abbrev SBias : Shape := ⟨1, ![512]⟩
abbrev SBiasRow : Shape := ⟨2, ![1, 512]⟩

/-- One entry of the layer from the four coordinate-indexed inputs: `x k d` is the slice's feature `d` of node `k`,
    `a k` the adjacency's row at column `k`, `w d` the weights' column at row `d`, `β` the bias entry. -/
def entry (x : Fin 1024 → Fin 512 → EReal) (a : Fin 1024 → EReal) (w : Fin 512 → EReal) (β : EReal) : EReal :=
  (∑ d : Fin 512, (∑ k : Fin 1024, a k * x k d) * w d) + β

/-- The layer on the natural layout. -/
def layer (X : SNat.Idx → EReal) (A : SAdj.Idx → EReal) (W : SWt.Idx → EReal) (b : SBias.Idx → EReal) : SNat.Idx → EReal :=
  fun i => entry (fun k d => X (ix4 (i 0) (i 1) k d)) (fun k => A (ix2 (i 2) k)) (fun d => W (ix2 d (i 3))) (b (ix1 (i 3)))

/-- The layer on the slices laid along one axis, the bias given as one row. -/
def sliceLayer (X : SSlices.Idx → EReal) (A : SAdj.Idx → EReal) (W : SWt.Idx → EReal) (b : SBiasRow.Idx → EReal) : SSlices.Idx → EReal :=
  fun i => entry (fun k d => X (ix3 (i 0) k d)) (fun k => A (ix2 (i 1) k)) (fun d => W (ix2 d (i 2))) (b (ix2 (0 : Fin 1) (i 2)))

/-- The layer on one block of four slices, the bias given as one row. -/
def blockLayer (X : SBlock.Idx → EReal) (A : SAdj.Idx → EReal) (W : SWt.Idx → EReal) (b : SBiasRow.Idx → EReal) : SBlock.Idx → EReal :=
  fun i => entry (fun k d => X (ix3 (i 0) k d)) (fun k => A (ix2 (i 1) k)) (fun d => W (ix2 d (i 2))) (b (ix2 (0 : Fin 1) (i 2)))

/-- Two entries agree when their inputs agree coordinate by coordinate. -/
theorem entry_congr {x x' : Fin 1024 → Fin 512 → EReal} {a a' : Fin 1024 → EReal} {w w' : Fin 512 → EReal} {β β' : EReal}
    (hx : ∀ k d, x k d = x' k d) (ha : ∀ k, a k = a' k) (hw : ∀ d, w d = w' d) (hβ : β = β') :
    entry x a w β = entry x' a' w' β' := by
  have ex : x = x' := funext fun k => funext fun d => hx k d
  have ea : a = a' := funext ha
  have ew : w = w' := funext hw
  rw [ex, ea, ew, hβ]

end Cert.Layer

end
-- ==== Proof.RefLayer.lean ====
/-
  The reference program computes the layer.

  The reference moves the node axis to the front (a transpose and a reshape to [1024, 512·4·12]), multiplies by the
  adjacency, undoes the move (a reshape and a transpose back to [4, 12, 1024, 512]), flattens to rows
  [4·12·1024, 512], multiplies by the weights, adds the bias broadcast over the rows, and reshapes to the natural
  layout. Read at an index (b, t, n, h) every layout step is a renaming of coordinates — a flat position split and
  re-joined by quotients and remainders of literal extents — so the two transposes cancel through the reshapes and
  what is left is the nested sum of `Cert.Layer.layer`: the inner contraction over the nodes, the outer over the features.
-/
import proofs.«110233_g62569083568837_cont_9to1_m_642_26_alg».proof.Proof.Layer
import proofs.«110233_g62569083568837_cont_9to1_m_642_26_alg».proof.Proof.Gen.ReferenceIdeal.Read

noncomputable section

namespace Cert.RefLayer

open Idealize.ShloMosaic Idealize.ShloMosaic.ValueIdx Cert.ReferenceIdeal Cert.ReferenceIdeal.Read Cert.Layer

/-! ## The layout steps as renamings of coordinates -/

/-- The row of the flattened [49152, 512] array that holds (b, t, n, ·). -/
def row (b : Fin 4) (t : Fin 12) (n : Fin 1024) : Fin 49152 :=
  ⟨(b.val * 12 + t.val) * 1024 + n.val, by have := b.isLt; have := t.isLt; have := n.isLt; omega⟩

/-- The column of the [1024, 24576] array that holds (·, d, b, t). -/
def col (d : Fin 512) (b : Fin 4) (t : Fin 12) : Fin 24576 :=
  ⟨(d.val * 4 + b.val) * 12 + t.val, by have := b.isLt; have := t.isLt; have := d.isLt; omega⟩

/-- The last reshape: (b, t, n, h) of the result is row (b, t, n), column h of the flattened array. -/
theorem idx_out (b : Fin 4) (t : Fin 12) (n : Fin 1024) (h : Fin 512) :
    idx_main_v10 (ix4 b t n h) = ix2 (row b t n) h := by
  have := b.isLt; have := t.isLt; have := n.isLt; have := h.isLt
  funext a; apply Fin.ext
  match a with
  | ⟨0, _⟩ => show (((b.val * 12 + t.val) * 1024 + n.val) * 512 + h.val) / 512 = (b.val * 12 + t.val) * 1024 + n.val; omega
  | ⟨1, _⟩ => show (((b.val * 12 + t.val) * 1024 + n.val) * 512 + h.val) % 512 = h.val; omega

/-- The flattening to rows: row (b, t, n), column d is (b, t, n, d) of the natural layout. -/
theorem idx_rows (b : Fin 4) (t : Fin 12) (n : Fin 1024) (d : Fin 512) :
    idx_main_v5 (ix2 (row b t n) d) = ix4 b t n d := by
  have := b.isLt; have := t.isLt; have := n.isLt; have := d.isLt
  funext a; apply Fin.ext
  match a with
  | ⟨0, _⟩ => show (((b.val * 12 + t.val) * 1024 + n.val) * 512 + d.val) / 6291456 = b.val; omega
  | ⟨1, _⟩ => show (((b.val * 12 + t.val) * 1024 + n.val) * 512 + d.val) / 524288 % 12 = t.val; omega
  | ⟨2, _⟩ => show (((b.val * 12 + t.val) * 1024 + n.val) * 512 + d.val) / 512 % 1024 = n.val; omega
  | ⟨3, _⟩ => show (((b.val * 12 + t.val) * 1024 + n.val) * 512 + d.val) % 512 = d.val; omega

/-- The transpose back: (b, t, n, d) reads (n, d, b, t). -/
theorem idx_back (b : Fin 4) (t : Fin 12) (n : Fin 1024) (d : Fin 512) :
    idx_main_v4 (ix4 b t n d) = ix4 n d b t := by
  funext a
  match a with
  | ⟨0, _⟩ => rfl
  | ⟨1, _⟩ => rfl
  | ⟨2, _⟩ => rfl
  | ⟨3, _⟩ => rfl

/-- The reshape after the adjacency product: (n, d, b, t) is row n, column (d, b, t). -/
theorem idx_unflat (n : Fin 1024) (d : Fin 512) (b : Fin 4) (t : Fin 12) :
    idx_main_v3 (ix4 n d b t) = ix2 n (col d b t) := by
  have := b.isLt; have := t.isLt; have := n.isLt; have := d.isLt
  funext a; apply Fin.ext
  match a with
  | ⟨0, _⟩ => show (((n.val * 512 + d.val) * 4 + b.val) * 12 + t.val) / 24576 = n.val; omega
  | ⟨1, _⟩ => show (((n.val * 512 + d.val) * 4 + b.val) * 12 + t.val) % 24576 = (d.val * 4 + b.val) * 12 + t.val; omega

/-- The reshape before the adjacency product: row k, column (d, b, t) is (k, d, b, t). -/
theorem idx_flat (k : Fin 1024) (d : Fin 512) (b : Fin 4) (t : Fin 12) :
    idx_main_v1 (ix2 k (col d b t)) = ix4 k d b t := by
  have := b.isLt; have := t.isLt; have := k.isLt; have := d.isLt
  funext a; apply Fin.ext
  match a with
  | ⟨0, _⟩ => show (k.val * 24576 + ((d.val * 4 + b.val) * 12 + t.val)) / 24576 = k.val; omega
  | ⟨1, _⟩ => show (k.val * 24576 + ((d.val * 4 + b.val) * 12 + t.val)) / 48 % 512 = d.val; omega
  | ⟨2, _⟩ => show (k.val * 24576 + ((d.val * 4 + b.val) * 12 + t.val)) / 12 % 4 = b.val; omega
  | ⟨3, _⟩ => show (k.val * 24576 + ((d.val * 4 + b.val) * 12 + t.val)) % 12 = t.val; omega

/-- The first transpose: (k, d, b, t) reads (b, t, k, d) of the input. -/
theorem idx_front (k : Fin 1024) (d : Fin 512) (b : Fin 4) (t : Fin 12) :
    idx_main_v0 (ix4 k d b t) = ix4 b t k d := by
  funext a
  match a with
  | ⟨0, _⟩ => rfl
  | ⟨1, _⟩ => rfl
  | ⟨2, _⟩ => rfl
  | ⟨3, _⟩ => rfl

/-- The operand indices of the two products and of the bias's two broadcasts. -/
theorem lidx_adj (n : Fin 1024) (c : Fin 24576) (k : Fin 1024) : lidx_main_v2 (ix2 n c) k = ix2 n k := by
  funext a
  match a with
  | ⟨0, _⟩ => rfl
  | ⟨1, _⟩ => rfl
theorem ridx_adj (n : Fin 1024) (c : Fin 24576) (k : Fin 1024) : ridx_main_v2 (ix2 n c) k = ix2 k c := by
  funext a
  match a with
  | ⟨0, _⟩ => rfl
  | ⟨1, _⟩ => rfl
theorem lidx_wt (r : Fin 49152) (h : Fin 512) (d : Fin 512) : lidx_main_v6 (ix2 r h) d = ix2 r d := by
  funext a
  match a with
  | ⟨0, _⟩ => rfl
  | ⟨1, _⟩ => rfl
theorem ridx_wt (r : Fin 49152) (h : Fin 512) (d : Fin 512) : ridx_main_v6 (ix2 r h) d = ix2 d h := by
  funext a
  match a with
  | ⟨0, _⟩ => rfl
  | ⟨1, _⟩ => rfl
theorem idx_bias (r : Fin 49152) (h : Fin 512) : idx_main_v7 (idx_main_v8 (ix2 r h)) = ix1 h := by
  funext a
  match a with
  | ⟨0, _⟩ => rfl

/-! ## The reference's result is the layer -/

/-- After the adjacency product and the move back, row (b, t, n), column d holds `∑ k, A[n, k] · X[b, t, k, d]`. -/
theorem mixed_nodes (X : SNat.Idx → EReal) (A : SAdj.Idx → EReal) (b : Fin 4) (t : Fin 12) (n : Fin 1024) (d : Fin 512) :
    val_main_v5 (F := Ideal) X A (ix2 (row b t n) d) = ∑ k : Fin 1024, A (ix2 n k) * X (ix4 b t k d) := by
  rw [val_main_v5_apply, idx_rows, val_main_v4_apply, idx_back, val_main_v3_apply, idx_unflat, val_main_v2_apply]
  refine Finset.sum_congr rfl fun k _ => ?_
  rw [lidx_adj, ridx_adj, val_main_v1_apply, idx_flat, val_main_v0_apply, idx_front]

/-- The reference's result, index by index, is the layer of its four arguments. -/
theorem result_eq (X : SNat.Idx → EReal) (A : SAdj.Idx → EReal) (W : SWt.Idx → EReal) (β : SBias.Idx → EReal) :
    val_main_v10 (F := Ideal) X A W β = layer X A W β := by
  funext i
  obtain ⟨b, t, n, h, rfl⟩ : ∃ (b : Fin 4) (t : Fin 12) (n : Fin 1024) (h : Fin 512), i = ix4 b t n h :=
    ⟨i 0, i 1, i 2, i 3, eq_ix4 i⟩
  rw [val_main_v10_apply, idx_out, val_main_v9_apply, val_main_v6_apply, val_main_v8_apply, val_main_v7_apply, idx_bias]
  show (∑ d : Fin 512, val_main_v5 (F := Ideal) X A (lidx_main_v6 (ix2 (row b t n) h) d) * W (ridx_main_v6 (ix2 (row b t n) h) d)) + β (ix1 h)
    = entry (fun k d => X (ix4 b t k d)) (fun k => A (ix2 n k)) (fun d => W (ix2 d h)) (β (ix1 h))
  unfold entry
  refine congrArg (· + β (ix1 h)) (Finset.sum_congr rfl fun d _ => ?_)
  rw [lidx_wt, ridx_wt, mixed_nodes]

end Cert.RefLayer

end
-- ==== Proof.BlockLayer.lean ====
/-
  What one grid step leaves in the output block: the layer of the step's four slices.

  A step holds a block `X` of four slices [4, 1024, 512], the whole adjacency `A`, the whole weights `W` and the bias
  as one row `β`. It multiplies the adjacency into each slice (four products [1024, 1024] · [1024, 512]), stacks the four
  results along the rows to [4096, 512], multiplies the stack by the weights once, and stores rows
  `1024 s … 1024 s + 1023` of that product plus the bias row as slice `s` of the output block. At the ideal values the
  changes of float format are the identity and a product into a zero accumulator is the plain sum, so entry (s, n, h) of
  the output block is
      (∑ d, (∑ k, A[n, k] · X[s, k, d]) · W[d, h]) + β[h] :
  row `1024 s + n` of the stack is row `n` of the adjacency product of slice `s`. The four stores tile the block, so
  the block after the body is `Cert.Layer.blockLayer` of the step's inputs.
-/
import proofs.«110233_g62569083568837_cont_9to1_m_642_26_alg».proof.Proof.Layer
import proofs.«110233_g62569083568837_cont_9to1_m_642_26_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.BlockLayer

open Idealize.ShloMosaic Idealize.ShloMosaic.ValueIdx Cert.KernelIdeal Cert.KernelIdeal.Gen Cert.Layer

/-! ## The two products read at an index -/

/-- The adjacency product's operand indices: output (n, d) at contraction coordinate k reads (n, k) and (k, d). -/
theorem adj_lhs_row (i : S1024x512.Idx) (q : dot_S1024x1024_S1024x512_S1024x512_1_0_0_1_n_n.contr.Idx) :
    (dot_S1024x1024_S1024x512_S1024x512_1_0_0_1_n_n.lhsIdx i q 0).val = (i 0).val := by
  unfold DotDims.lhsIdx
  rw [dif_neg (show ¬(0 : Fin S1024x1024.rank) ∈ dot_S1024x1024_S1024x512_S1024x512_1_0_0_1_n_n.lhsBatch by decide), dif_pos (show (0 : Fin S1024x1024.rank) ∈ dot_S1024x1024_S1024x512_S1024x512_1_0_0_1_n_n.lhsNonContracting by decide)]
  rfl
theorem adj_lhs_col (i : S1024x512.Idx) (q : dot_S1024x1024_S1024x512_S1024x512_1_0_0_1_n_n.contr.Idx) :
    (dot_S1024x1024_S1024x512_S1024x512_1_0_0_1_n_n.lhsIdx i q 1).val = (q ⟨0, by decide⟩).val :=
  dot_S1024x1024_S1024x512_S1024x512_1_0_0_1_n_n.lhsIdx_val_of_single rfl i q
theorem adj_rhs_row (i : S1024x512.Idx) (q : dot_S1024x1024_S1024x512_S1024x512_1_0_0_1_n_n.contr.Idx) :
    (dot_S1024x1024_S1024x512_S1024x512_1_0_0_1_n_n.rhsIdx i q 0).val = (q ⟨0, by decide⟩).val :=
  dot_S1024x1024_S1024x512_S1024x512_1_0_0_1_n_n.rhsIdx_val_of_single rfl i q
theorem adj_rhs_col (i : S1024x512.Idx) (q : dot_S1024x1024_S1024x512_S1024x512_1_0_0_1_n_n.contr.Idx) :
    (dot_S1024x1024_S1024x512_S1024x512_1_0_0_1_n_n.rhsIdx i q 1).val = (i 1).val := by
  unfold DotDims.rhsIdx
  rw [dif_neg (show ¬(1 : Fin S1024x512.rank) ∈ dot_S1024x1024_S1024x512_S1024x512_1_0_0_1_n_n.rhsBatch by decide), dif_pos (show (1 : Fin S1024x512.rank) ∈ dot_S1024x1024_S1024x512_S1024x512_1_0_0_1_n_n.rhsNonContracting by decide)]
  rfl

/-- The weights product's operand indices: output (r, h) at contraction coordinate d reads (r, d) and (d, h). -/
theorem wt_lhs_row (i : S4096x512.Idx) (q : dot_S4096x512_S512x512_S4096x512_1_0_0_1_n_n.contr.Idx) :
    (dot_S4096x512_S512x512_S4096x512_1_0_0_1_n_n.lhsIdx i q 0).val = (i 0).val := by
  unfold DotDims.lhsIdx
  rw [dif_neg (show ¬(0 : Fin S4096x512.rank) ∈ dot_S4096x512_S512x512_S4096x512_1_0_0_1_n_n.lhsBatch by decide), dif_pos (show (0 : Fin S4096x512.rank) ∈ dot_S4096x512_S512x512_S4096x512_1_0_0_1_n_n.lhsNonContracting by decide)]
  rfl
theorem wt_lhs_col (i : S4096x512.Idx) (q : dot_S4096x512_S512x512_S4096x512_1_0_0_1_n_n.contr.Idx) :
    (dot_S4096x512_S512x512_S4096x512_1_0_0_1_n_n.lhsIdx i q 1).val = (q ⟨0, by decide⟩).val :=
  dot_S4096x512_S512x512_S4096x512_1_0_0_1_n_n.lhsIdx_val_of_single rfl i q
theorem wt_rhs_row (i : S4096x512.Idx) (q : dot_S4096x512_S512x512_S4096x512_1_0_0_1_n_n.contr.Idx) :
    (dot_S4096x512_S512x512_S4096x512_1_0_0_1_n_n.rhsIdx i q 0).val = (q ⟨0, by decide⟩).val :=
  dot_S4096x512_S512x512_S4096x512_1_0_0_1_n_n.rhsIdx_val_of_single rfl i q
theorem wt_rhs_col (i : S4096x512.Idx) (q : dot_S4096x512_S512x512_S4096x512_1_0_0_1_n_n.contr.Idx) :
    (dot_S4096x512_S512x512_S4096x512_1_0_0_1_n_n.rhsIdx i q 1).val = (i 1).val := by
  unfold DotDims.rhsIdx
  rw [dif_neg (show ¬(1 : Fin S512x512.rank) ∈ dot_S4096x512_S512x512_S4096x512_1_0_0_1_n_n.rhsBatch by decide), dif_pos (show (1 : Fin S512x512.rank) ∈ dot_S4096x512_S512x512_S4096x512_1_0_0_1_n_n.rhsNonContracting by decide)]
  rfl

/-- The adjacency applied to one loaded slice `v` (a [1, 1024, 512] piece of the block): the body's product into a
    zero accumulator, with its changes of float format. -/
def mixedNodes (a : Vec Ideal S1024x1024 .bf16) (v : Vec Ideal S1x1024x512 .f32) : FVec Ideal S1024x512 .bf16 :=
  truncf .bf16 (matmul (φ₁ := .bf16) (φ₂ := .bf16) dot_S1024x1024_S1024x512_S1024x512_1_0_0_1_n_n none
      (shapeCast S1024x1024 a shapeCasts_S1024x1024_S1024x1024)
      (truncf .bf16 (shapeCast S1024x512 v shapeCasts_S1x1024x512_S1024x512) bitsLt_bf16_f32)
      (constant S1024x512 .f32 0x00000000#32)) bitsLt_bf16_f32

/-- Entry (n, d) of it is `∑ k, a[n, k] · v[0, k, d]`. -/
theorem mixedNodes_apply (a : Vec Ideal S1024x1024 .bf16) (v : Vec Ideal S1x1024x512 .f32) (n : Fin 1024) (d : Fin 512) :
    mixedNodes a v (ix2 n d) = ∑ k : Fin 1024, a (ix2 n k) * v (ix3 (0 : Fin 1) k d) := by
  unfold mixedNodes
  show FloatOps.matmul (φ₁ := .bf16) (φ₂ := .bf16) dot_S1024x1024_S1024x512_S1024x512_1_0_0_1_n_n none
      (shapeCast S1024x1024 a shapeCasts_S1024x1024_S1024x1024)
      (truncf .bf16 (shapeCast S1024x512 v shapeCasts_S1x1024x512_S1024x512) bitsLt_bf16_f32)
      (constant (F := Ideal) S1024x512 .f32 0x00000000#32) (ix2 n d) = _
  rw [Ideal.matmul_constant_zero_apply, ← Equiv.sum_comp (contrEquiv1 dot_S1024x1024_S1024x512_S1024x512_1_0_0_1_n_n 1024 rfl rfl).symm]
  refine Finset.sum_congr rfl fun k _ => ?_
  have hk := contrEquiv1_symm_val dot_S1024x1024_S1024x512_S1024x512_1_0_0_1_n_n 1024 rfl rfl k
  have el : dot_S1024x1024_S1024x512_S1024x512_1_0_0_1_n_n.lhsIdx (ix2 n d) ((contrEquiv1 dot_S1024x1024_S1024x512_S1024x512_1_0_0_1_n_n 1024 rfl rfl).symm k) = ix2 n k := funext fun ax => Fin.ext (by
    match ax with
    | ⟨0, _⟩ => exact adj_lhs_row _ _
    | ⟨1, _⟩ => exact (adj_lhs_col _ _).trans hk)
  have er : dot_S1024x1024_S1024x512_S1024x512_1_0_0_1_n_n.rhsIdx (ix2 n d) ((contrEquiv1 dot_S1024x1024_S1024x512_S1024x512_1_0_0_1_n_n 1024 rfl rfl).symm k) = ix2 k d := funext fun ax => Fin.ext (by
    match ax with
    | ⟨0, _⟩ => exact (adj_rhs_row _ _).trans hk
    | ⟨1, _⟩ => exact adj_rhs_col _ _)
  rw [el, er, shapeCast_self]
  show a (ix2 n k) * shapeCast S1024x512 v shapeCasts_S1x1024x512_S1024x512 (ix2 k d) = _
  rw [shapeCast_1ab_ab_apply]

/-- The product of any [4096, 512] stack `c` with the loaded weights into a zero accumulator: entry (r, h) is
    `∑ d, c[r, d] · w[d, h]`. -/
theorem mixedFeatures_apply (c : FVec Ideal S4096x512 .bf16) (w : Vec Ideal S512x512 .bf16) (r : Fin 4096) (h : Fin 512) :
    matmul (φ₁ := .bf16) (φ₂ := .bf16) dot_S4096x512_S512x512_S4096x512_1_0_0_1_n_n none c (shapeCast S512x512 w shapeCasts_S512x512_S512x512)
        (constant (F := Ideal) S4096x512 .f32 0x00000000#32) (ix2 r h)
      = ∑ d : Fin 512, c (ix2 r d) * w (ix2 d h) := by
  show FloatOps.matmul (φ₁ := .bf16) (φ₂ := .bf16) dot_S4096x512_S512x512_S4096x512_1_0_0_1_n_n none c (shapeCast S512x512 w shapeCasts_S512x512_S512x512)
      (constant (F := Ideal) S4096x512 .f32 0x00000000#32) (ix2 r h) = _
  rw [Ideal.matmul_constant_zero_apply, ← Equiv.sum_comp (contrEquiv1 dot_S4096x512_S512x512_S4096x512_1_0_0_1_n_n 512 rfl rfl).symm]
  refine Finset.sum_congr rfl fun d _ => ?_
  have hd := contrEquiv1_symm_val dot_S4096x512_S512x512_S4096x512_1_0_0_1_n_n 512 rfl rfl d
  have el : dot_S4096x512_S512x512_S4096x512_1_0_0_1_n_n.lhsIdx (ix2 r h) ((contrEquiv1 dot_S4096x512_S512x512_S4096x512_1_0_0_1_n_n 512 rfl rfl).symm d) = ix2 r d := funext fun ax => Fin.ext (by
    match ax with
    | ⟨0, _⟩ => exact wt_lhs_row _ _
    | ⟨1, _⟩ => exact (wt_lhs_col _ _).trans hd)
  have er : dot_S4096x512_S512x512_S4096x512_1_0_0_1_n_n.rhsIdx (ix2 r h) ((contrEquiv1 dot_S4096x512_S512x512_S4096x512_1_0_0_1_n_n 512 rfl rfl).symm d) = ix2 d h := funext fun ax => Fin.ext (by
    match ax with
    | ⟨0, _⟩ => exact (wt_rhs_row _ _).trans hd
    | ⟨1, _⟩ => exact wt_rhs_col _ _)
  rw [el, er, shapeCast_self]

/-! ## The stack of the four adjacency products -/

/-- Slice `s` of the block, as the body loads it, read at (0, k, d) is the block at (s, k, d). -/
theorem slice0_idx (k : Fin 1024) (d : Fin 512) : r0_1.idx (ix3 (0 : Fin 1) k d) = (ix3 (0 : Fin 4) k d : S4x1024x512.Idx) := by
  funext ax; apply Fin.ext
  match ax with
  | ⟨0, _⟩ => show 0 + 1 * 0 = 0; rfl
  | ⟨1, _⟩ => show 0 + 1 * k.val = k.val; omega
  | ⟨2, _⟩ => show 0 + 1 * d.val = d.val; omega
theorem slice1_idx (k : Fin 1024) (d : Fin 512) : r0_2.idx (ix3 (0 : Fin 1) k d) = (ix3 (1 : Fin 4) k d : S4x1024x512.Idx) := by
  funext ax; apply Fin.ext
  match ax with
  | ⟨0, _⟩ => show 1 + 1 * 0 = 1; rfl
  | ⟨1, _⟩ => show 0 + 1 * k.val = k.val; omega
  | ⟨2, _⟩ => show 0 + 1 * d.val = d.val; omega
theorem slice2_idx (k : Fin 1024) (d : Fin 512) : r0_3.idx (ix3 (0 : Fin 1) k d) = (ix3 (2 : Fin 4) k d : S4x1024x512.Idx) := by
  funext ax; apply Fin.ext
  match ax with
  | ⟨0, _⟩ => show 2 + 1 * 0 = 2; rfl
  | ⟨1, _⟩ => show 0 + 1 * k.val = k.val; omega
  | ⟨2, _⟩ => show 0 + 1 * d.val = d.val; omega
theorem slice3_idx (k : Fin 1024) (d : Fin 512) : r0_4.idx (ix3 (0 : Fin 1) k d) = (ix3 (3 : Fin 4) k d : S4x1024x512.Idx) := by
  funext ax; apply Fin.ext
  match ax with
  | ⟨0, _⟩ => show 3 + 1 * 0 = 3; rfl
  | ⟨1, _⟩ => show 0 + 1 * k.val = k.val; omega
  | ⟨2, _⟩ => show 0 + 1 * d.val = d.val; omega

/-- The four adjacency products stacked along the rows. -/
def stack (a : Vec Ideal S1024x1024 .bf16) (x : Vec Ideal S4x1024x512 .f32) : FVec Ideal S4096x512 .bf16 :=
  concatenate S4096x512 0 [⟨S1024x512, mixedNodes a (View.ld x r0_1)⟩, ⟨S1024x512, mixedNodes a (View.ld x r0_2)⟩,
    ⟨S1024x512, mixedNodes a (View.ld x r0_3)⟩, ⟨S1024x512, mixedNodes a (View.ld x r0_4)⟩]
    concatenates_S1024x512_S1024x512_S1024x512_S1024x512_S4096x512_d0

/-- Row `1024 s + n` of the stack is row `n` of the adjacency product of slice `s`. -/
theorem stack_apply (a : Vec Ideal S1024x1024 .bf16) (x : Vec Ideal S4x1024x512 .f32) (s : Fin 4) (n : Fin 1024) (d : Fin 512)
    (r : Fin 4096) (hr : r.val = 1024 * s.val + n.val) :
    stack a x (ix2 r d) = ∑ k : Fin 1024, a (ix2 n k) * x (ix3 s k d) := by
  unfold stack
  have hoff : ∀ b : Fin S1024x512.rank, b.cast (rfl : S1024x512.rank = S4096x512.rank) ≠ (0 : Fin S4096x512.rank) →
      ((ix2 n d : S1024x512.Idx) b).val = ((ix2 r d : S4096x512.Idx) (b.cast rfl)).val := fun b hb =>
    match b with
    | ⟨0, _⟩ => absurd rfl hb
    | ⟨1, _⟩ => rfl
  match s, hr with
  | ⟨0, _⟩, hr =>
    have hr' : r.val = 1024 * 0 + n.val := hr
    refine (concatenate_apply_piece (0 : Fin S4096x512.rank) _ _ (ix2 r d) 0 (by simp) S1024x512 (mixedNodes a (View.ld x r0_1)) rfl rfl 0 rfl (ix2 n d) hoff
      (by show 0 + n.val = r.val; omega)).trans ?_
    rw [mixedNodes_apply]
    refine Finset.sum_congr rfl fun k _ => ?_
    show a (ix2 n k) * x (r0_1.idx (ix3 (0 : Fin 1) k d)) = _
    rw [slice0_idx]
    rfl
  | ⟨1, _⟩, hr =>
    have hr' : r.val = 1024 * 1 + n.val := hr
    refine (concatenate_apply_piece (0 : Fin S4096x512.rank) _ _ (ix2 r d) 1 (by simp) S1024x512 (mixedNodes a (View.ld x r0_2)) rfl rfl 1024 rfl (ix2 n d) hoff
      (by show 1024 + n.val = r.val; omega)).trans ?_
    rw [mixedNodes_apply]
    refine Finset.sum_congr rfl fun k _ => ?_
    show a (ix2 n k) * x (r0_2.idx (ix3 (0 : Fin 1) k d)) = _
    rw [slice1_idx]
    rfl
  | ⟨2, _⟩, hr =>
    have hr' : r.val = 1024 * 2 + n.val := hr
    refine (concatenate_apply_piece (0 : Fin S4096x512.rank) _ _ (ix2 r d) 2 (by simp) S1024x512 (mixedNodes a (View.ld x r0_3)) rfl rfl 2048 rfl (ix2 n d) hoff
      (by show 2048 + n.val = r.val; omega)).trans ?_
    rw [mixedNodes_apply]
    refine Finset.sum_congr rfl fun k _ => ?_
    show a (ix2 n k) * x (r0_3.idx (ix3 (0 : Fin 1) k d)) = _
    rw [slice2_idx]
    rfl
  | ⟨3, _⟩, hr =>
    have hr' : r.val = 1024 * 3 + n.val := hr
    refine (concatenate_apply_piece (0 : Fin S4096x512.rank) _ _ (ix2 r d) 3 (by simp) S1024x512 (mixedNodes a (View.ld x r0_4)) rfl rfl 3072 rfl (ix2 n d) hoff
      (by show 3072 + n.val = r.val; omega)).trans ?_
    rw [mixedNodes_apply]
    refine Finset.sum_congr rfl fun k _ => ?_
    show a (ix2 n k) * x (r0_4.idx (ix3 (0 : Fin 1) k d)) = _
    rw [slice3_idx]
    rfl

/-- The body's one big value — the stack times the weights — is that term of its loads. -/
theorem product_eq (a : Vec Ideal S1024x1024 .bf16) (x : Vec Ideal S4x1024x512 .f32) (w : Vec Ideal S512x512 .bf16) :
    k0_pay5 a (View.ld x r0_1) a (View.ld x r0_2) a (View.ld x r0_3) a (View.ld x r0_4) w
      = matmul (φ₁ := .bf16) (φ₂ := .bf16) dot_S4096x512_S512x512_S4096x512_1_0_0_1_n_n none (stack a x) (shapeCast S512x512 w shapeCasts_S512x512_S512x512)
          (constant (F := Ideal) S4096x512 .f32 0x00000000#32) := rfl

/-- Row `1024 s + n`, column `h` of the big value: the features of row `n` of slice `s`'s adjacency product, mixed by the weights. -/
theorem product_apply (a : Vec Ideal S1024x1024 .bf16) (x : Vec Ideal S4x1024x512 .f32) (w : Vec Ideal S512x512 .bf16)
    (s : Fin 4) (n : Fin 1024) (h : Fin 512) (r : Fin 4096) (hr : r.val = 1024 * s.val + n.val) :
    k0_pay5 a (View.ld x r0_1) a (View.ld x r0_2) a (View.ld x r0_3) a (View.ld x r0_4) w (ix2 r h)
      = ∑ d : Fin 512, (∑ k : Fin 1024, a (ix2 n k) * x (ix3 s k d)) * w (ix2 d h) := by
  rw [product_eq, mixedFeatures_apply]
  refine Finset.sum_congr rfl fun d _ => ?_
  rw [stack_apply a x s n d r hr]

/-! ## One store's payload -/

/-- Rows `o … o + 1023` of a [4096, 512] value `V` plus the bias row, as a [1, 1024, 512] piece: at (u, n, h) it is
    `V[o + n, h] + β[0, h]`. -/
theorem stored_apply (o : Nat) (hs : S4096x512.Slices ![o, 0] S1024x512) (V : FVec Ideal S4096x512 .f32) (β : Vec Ideal S1x512 .f32)
    (u : Fin 1) (n : Fin 1024) (h : Fin 512) (r : Fin 4096) (hr : r.val = o + n.val) :
    shapeCast S1x1024x512 (addf (extractStridedSlice S1024x512 ![o, 0] V hs)
        (broadcastTo S1024x512 (shapeCast S1x512 β shapeCasts_S1x512_S1x512) broadcasts_S1x512_S1024x512))
        shapeCasts_S1024x512_S1x1024x512 (ix3 u n h)
      = V (ix2 r h) + β (ix2 (0 : Fin 1) h) := by
  rw [shapeCast_ab_1ab_apply]
  show extractStridedSlice S1024x512 ![o, 0] V hs (ix2 n h)
      + broadcastTo S1024x512 (shapeCast S1x512 β shapeCasts_S1x512_S1x512) broadcasts_S1x512_S1024x512 (ix2 n h) = _
  rw [slice2_axis0_apply o V hs n h r hr, broadcastTo_1b_ab_apply, shapeCast_self]

/-! ## The four stores tile the block -/

theorem hz2 : (![0, 0] : Fin 2 → Nat) = fun _ => 0 := funext fun a => by fin_cases a <;> rfl

/-- Stored piece `s` at its own index (u, n, h) sits at (s, n, h) of the block. -/
theorem piece0_idx (u : Fin 1) (n : Fin 1024) (h : Fin 512) : r0_1.idx (ix3 u n h) = (ix3 (0 : Fin 4) n h : S4x1024x512.Idx) := by
  have := u.isLt
  funext ax; apply Fin.ext
  match ax with
  | ⟨0, _⟩ => show 0 + 1 * u.val = 0; omega
  | ⟨1, _⟩ => show 0 + 1 * n.val = n.val; omega
  | ⟨2, _⟩ => show 0 + 1 * h.val = h.val; omega
theorem piece1_idx (u : Fin 1) (n : Fin 1024) (h : Fin 512) : r0_2.idx (ix3 u n h) = (ix3 (1 : Fin 4) n h : S4x1024x512.Idx) := by
  have := u.isLt
  funext ax; apply Fin.ext
  match ax with
  | ⟨0, _⟩ => show 1 + 1 * u.val = 1; omega
  | ⟨1, _⟩ => show 0 + 1 * n.val = n.val; omega
  | ⟨2, _⟩ => show 0 + 1 * h.val = h.val; omega
theorem piece2_idx (u : Fin 1) (n : Fin 1024) (h : Fin 512) : r0_3.idx (ix3 u n h) = (ix3 (2 : Fin 4) n h : S4x1024x512.Idx) := by
  have := u.isLt
  funext ax; apply Fin.ext
  match ax with
  | ⟨0, _⟩ => show 2 + 1 * u.val = 2; omega
  | ⟨1, _⟩ => show 0 + 1 * n.val = n.val; omega
  | ⟨2, _⟩ => show 0 + 1 * h.val = h.val; omega
theorem piece3_idx (u : Fin 1) (n : Fin 1024) (h : Fin 512) : r0_4.idx (ix3 u n h) = (ix3 (3 : Fin 4) n h : S4x1024x512.Idx) := by
  have := u.isLt
  funext ax; apply Fin.ext
  match ax with
  | ⟨0, _⟩ => show 3 + 1 * u.val = 3; omega
  | ⟨1, _⟩ => show 0 + 1 * n.val = n.val; omega
  | ⟨2, _⟩ => show 0 + 1 * h.val = h.val; omega

section Stores
variable (x : Vec Ideal S4x1024x512 .f32) (a : Vec Ideal S1024x1024 .bf16) (w : Vec Ideal S512x512 .bf16) (β : Vec Ideal S1x512 .f32)

/-- Each store's payload, at the store's own index, is the block's layer at the index under it. -/
theorem store0_eq (y : S1x1024x512.Idx) :
    k0_pay1 (k0_pay5 a (View.ld x r0_1) a (View.ld x r0_2) a (View.ld x r0_3) a (View.ld x r0_4) w) β y = blockLayer x a w β (r0_1.idx y) := by
  obtain ⟨u, n, h, rfl⟩ : ∃ (u : Fin 1) (n : Fin 1024) (h : Fin 512), y = ix3 u n h := ⟨y 0, y 1, y 2, eq_ix3 y⟩
  rw [piece0_idx]
  refine (stored_apply 0 slices_S4096x512_o0_0_S1024x512 _ β u n h ⟨0 + n.val, by have := n.isLt; omega⟩ rfl).trans ?_
  rw [product_apply a x w 0 n h _ (by show 0 + n.val = 1024 * 0 + n.val; omega)]
  rfl
theorem store1_eq (y : S1x1024x512.Idx) :
    k0_pay2 (k0_pay5 a (View.ld x r0_1) a (View.ld x r0_2) a (View.ld x r0_3) a (View.ld x r0_4) w) β y = blockLayer x a w β (r0_2.idx y) := by
  obtain ⟨u, n, h, rfl⟩ : ∃ (u : Fin 1) (n : Fin 1024) (h : Fin 512), y = ix3 u n h := ⟨y 0, y 1, y 2, eq_ix3 y⟩
  rw [piece1_idx]
  refine (stored_apply 1024 slices_S4096x512_o1024_0_S1024x512 _ β u n h ⟨1024 + n.val, by have := n.isLt; omega⟩ rfl).trans ?_
  rw [product_apply a x w 1 n h _ (by show 1024 + n.val = 1024 * 1 + n.val; omega)]
  rfl
theorem store2_eq (y : S1x1024x512.Idx) :
    k0_pay3 (k0_pay5 a (View.ld x r0_1) a (View.ld x r0_2) a (View.ld x r0_3) a (View.ld x r0_4) w) β y = blockLayer x a w β (r0_3.idx y) := by
  obtain ⟨u, n, h, rfl⟩ : ∃ (u : Fin 1) (n : Fin 1024) (h : Fin 512), y = ix3 u n h := ⟨y 0, y 1, y 2, eq_ix3 y⟩
  rw [piece2_idx]
  refine (stored_apply 2048 slices_S4096x512_o2048_0_S1024x512 _ β u n h ⟨2048 + n.val, by have := n.isLt; omega⟩ rfl).trans ?_
  rw [product_apply a x w 2 n h _ (by show 2048 + n.val = 1024 * 2 + n.val; omega)]
  rfl
theorem store3_eq (y : S1x1024x512.Idx) :
    k0_pay4 (k0_pay5 a (View.ld x r0_1) a (View.ld x r0_2) a (View.ld x r0_3) a (View.ld x r0_4) w) β y = blockLayer x a w β (r0_4.idx y) := by
  obtain ⟨u, n, h, rfl⟩ : ∃ (u : Fin 1) (n : Fin 1024) (h : Fin 512), y = ix3 u n h := ⟨y 0, y 1, y 2, eq_ix3 y⟩
  rw [piece3_idx]
  refine (stored_apply 3072 slices_S4096x512_o3072_0_S1024x512 _ β u n h ⟨3072 + n.val, by have := n.isLt; omega⟩ rfl).trans ?_
  rw [product_apply a x w 3 n h _ (by show 3072 + n.val = 1024 * 3 + n.val; omega)]
  rfl

end Stores

/-- WHAT THE BODY LEAVES in the output block, from the step's four input blocks: the layer of the block's four slices. -/
theorem after_body (x0 : Vec Ideal S4x1024x512 .f32) (x1 : Vec Ideal S1024x1024 .bf16) (x2 : Vec Ideal S512x512 .bf16) (x3 : Vec Ideal S1x512 .f32) :
    out0_4 x0 x1 x2 x3 = blockLayer x0 x1 x2 x3 := by
  funext y
  unfold out0_4
  simp only [View.ld_unit_zero (S := S1024x1024) hz2, View.ld_unit_zero (S := S512x512) hz2, View.ld_unit_zero (S := S1x512) hz2]
  refine View.canon_apply_of_pieces (Val := Elt Ideal) (S := S4x1024x512) (e := .f32) (blockLayer x0 x1 x2 x3) _ ?_ y (cover0_4 _ _ _ _ y)
  intro pc hpc z
  rcases List.mem_cons.mp hpc with rfl | hpc
  · exact store3_eq x0 x1 x2 x3 z
  rcases List.mem_cons.mp hpc with rfl | hpc
  · exact store2_eq x0 x1 x2 x3 z
  rcases List.mem_cons.mp hpc with rfl | hpc
  · exact store1_eq x0 x1 x2 x3 z
  rcases List.mem_cons.mp hpc with rfl | hpc
  · exact store0_eq x0 x1 x2 x3 z
  nomatch hpc

end Cert.BlockLayer

end
-- ==== Proof.ArrayLayer.lean ====
/-
  From the blocks to the array: after the whole grid the kernel's output array holds the layer of the 48 slices.

  The grid has 12 points; point `t` works on slices `4 t … 4 t + 3`: its features block and its output block are block
  `t` along the first axis of their [48, 1024, 512] arrays, while the adjacency, the weights and the bias row are the
  same whole arrays at every point. So what point `t` writes back — the layer of its four slices
  (`Cert.BlockLayer.after_body`) — is block `t` of ONE function of the arrays the grid was entered with,
  `Cert.Layer.sliceLayer`: entry (4 t + s, n, h) depends on slice 4 t + s only. The 12 output blocks tile the output
  array (slice `g` is in block `g / 4`), so after the last point the array is that function everywhere.
-/
import proofs.«110233_g62569083568837_cont_9to1_m_642_26_alg».proof.Proof.BlockLayer
import Idealize.ShloMosaic.Lib.Pipeline.Value

set_option maxRecDepth 16384

noncomputable section

namespace Cert.ArrayLayer

open Idealize.ShloMosaic Idealize.ShloMosaic.TcCoe Idealize.SL.Sem Idealize.ShloMosaic.ValueIdx
open Idealize.ShloMosaic.Pipeline (Dat)
open Cert.KernelIdeal Cert.KernelIdeal.Gen Cert.Layer

variable (m : (ℓ : Loc nD τ sig) → Buf (Elt Ideal) ℓ)

/-! ## The printed index maps, decided over the 12 points -/

/-- The features' and the output's blocks move together along the first axis and sit at block 0 of the other two; the
    adjacency's, the weights' and the bias row's block is always block (0, 0). -/
theorem idx_facts : ∀ t : Fin cfg0.N,
    win0_0.index t (0 : Fin 3) = win0_4.index t (0 : Fin 3)
    ∧ win0_0.index t (1 : Fin 3) = 0 ∧ win0_0.index t (2 : Fin 3) = 0
    ∧ win0_4.index t (1 : Fin 3) = 0 ∧ win0_4.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) ≤ 11 :=
  (by decide +kernel : ∀ t : Fin grid0.N, _)

/-- Every one of the 12 blocks along the first axis is some point's output block. -/
theorem idx_onto : ∀ q : Fin 12, ∃ t : Fin cfg0.N, win0_4.index t = ![q.val, 0, 0] :=
  (by decide +kernel : ∀ q : Fin 12, ∃ t : Fin grid0.N, win0_4.index t = ![q.val, 0, 0])

/-! ## Each input block, read where the arrays hold it -/

/-- The features block at point `t`: (s, k, d) of it is slice `4 · (the point's block) + s` of the features array. -/
theorem features_read (c : Dev nD) (t : Fin cfg0.N) (s : Fin 4) (k : Fin 1024) (d : Fin 512) (g : Fin 48)
    (hg : g.val = win0_4.index t (0 : Fin 3) * 4 + s.val) :
    (iblk m c 0 t : Vec Ideal S4x1024x512 .f32) (ix3 s k d) = (V m c main_v0 : S48x1024x512.Idx → EReal) (ix3 g k d) := by
  obtain ⟨e0, e1, e2, -⟩ := idx_facts t
  unfold iblk
  rw [View.read_apply]
  show V m c main_v0 _ = V m c main_v0 _
  congr 1
  funext a; apply Fin.ext
  match a with
  | ⟨0, _⟩ => show win0_0.index t (0 : Fin 3) * 4 + 1 * s.val = g.val; omega
  | ⟨1, _⟩ => show win0_0.index t (1 : Fin 3) * 1024 + 1 * k.val = k.val; omega
  | ⟨2, _⟩ => show win0_0.index t (2 : Fin 3) * 512 + 1 * d.val = d.val; omega

/-- The adjacency block is the whole adjacency array. -/
theorem adjacency_read (c : Dev nD) (t : Fin cfg0.N) (n k : Fin 1024) :
    (iblk m c 1 t : Vec Ideal S1024x1024 .bf16) (ix2 n k) = (V m c main_v1 : S1024x1024.Idx → EReal) (ix2 n k) := by
  obtain ⟨-, -, -, -, -, e5, e6, -⟩ := idx_facts t
  unfold iblk
  rw [View.read_apply]
  show V m c main_v1 _ = V m c main_v1 _
  congr 1
  funext a; apply Fin.ext
  match a with
  | ⟨0, _⟩ => show win0_1.index t (0 : Fin 2) * 1024 + 1 * n.val = n.val; omega
  | ⟨1, _⟩ => show win0_1.index t (1 : Fin 2) * 1024 + 1 * k.val = k.val; omega

/-- The weights block is the whole weights array. -/
theorem weights_read (c : Dev nD) (t : Fin cfg0.N) (d h : Fin 512) :
    (iblk m c 2 t : Vec Ideal S512x512 .bf16) (ix2 d h) = (V m c main_v2 : S512x512.Idx → EReal) (ix2 d h) := by
  obtain ⟨-, -, -, -, -, -, -, e7, e8, -⟩ := idx_facts t
  unfold iblk
  rw [View.read_apply]
  show V m c main_v2 _ = V m c main_v2 _
  congr 1
  funext a; apply Fin.ext
  match a with
  | ⟨0, _⟩ => show win0_2.index t (0 : Fin 2) * 512 + 1 * d.val = d.val; omega
  | ⟨1, _⟩ => show win0_2.index t (1 : Fin 2) * 512 + 1 * h.val = h.val; omega

/-- The bias block is the whole bias row. -/
theorem bias_read (c : Dev nD) (t : Fin cfg0.N) (h : Fin 512) :
    (iblk m c 3 t : Vec Ideal S1x512 .f32) (ix2 (0 : Fin 1) h) = (V m c main_v3 : S1x512.Idx → EReal) (ix2 (0 : Fin 1) h) := by
  obtain ⟨-, -, -, -, -, -, -, -, -, e9, e10, -⟩ := idx_facts t
  unfold iblk
  rw [View.read_apply]
  show V m c main_v3 _ = V m c main_v3 _
  congr 1
  funext a; apply Fin.ext
  match a with
  | ⟨0, _⟩ => show win0_3.index t (0 : Fin 2) * 1 + 1 * 0 = 0; omega
  | ⟨1, _⟩ => show win0_3.index t (1 : Fin 2) * 512 + 1 * h.val = h.val; omega

/-! ## What a point writes back, and the array after the grid -/

/-- The layer of the 48 slices as the grid finds the arrays. -/
abbrev entered (c : Dev nD) : S48x1024x512.Idx → EReal :=
  sliceLayer (V m c main_v0) (V m c main_v1) (V m c main_v2) (V m c main_v3)

/-- WHAT POINT `t` WRITES BACK is block `t` of the slices' layer of the arrays as the grid finds them. -/
theorem flushed_eq (c : Dev nD) (t : Fin cfg0.N) :
    (dats m 0 c).flushed 4 t = ((cfg0.win 4).blk t).view.read (Elt Ideal) (entered m c) := by
  show (cfg0.win 4).cut (grid0.coords t) ((dats m 0 c).after 4 t) = _
  rw [after0_4, Cert.BlockLayer.after_body (iblk m c 0 t) (iblk m c 1 t) (iblk m c 2 t) (iblk m c 3 t)]
  obtain ⟨e0, e1, e2, e3, e4, -, -, -, -, -, -, e11⟩ := idx_facts t
  funext j
  obtain ⟨s, n, h, rfl⟩ : ∃ (s : Fin 4) (n : Fin 1024) (h : Fin 512), j = ix3 s n h := ⟨j 0, j 1, j 2, eq_ix3 j⟩
  have hs := s.isLt
  have hemb : ((cfg0.win 4).blk t).view.emb (ix3 s n h)
      = (ix3 (⟨win0_4.index t (0 : Fin 3) * 4 + s.val, by omega⟩ : Fin 48) n h : S48x1024x512.Idx) := by
    funext a; apply Fin.ext
    match a with
    | ⟨0, _⟩ => show win0_4.index t (0 : Fin 3) * 4 + 1 * s.val = win0_4.index t (0 : Fin 3) * 4 + s.val; omega
    | ⟨1, _⟩ => show win0_4.index t (1 : Fin 3) * 1024 + 1 * n.val = n.val; omega
    | ⟨2, _⟩ => show win0_4.index t (2 : Fin 3) * 512 + 1 * h.val = h.val; omega
  show blockLayer (iblk m c 0 t) (iblk m c 1 t) (iblk m c 2 t) (iblk m c 3 t) (ix3 s n h)
    = entered m c (((cfg0.win 4).blk t).view.emb (ix3 s n h))
  rw [hemb]
  show entry (fun k d => (iblk m c 0 t : Vec Ideal S4x1024x512 .f32) (ix3 s k d)) (fun k => (iblk m c 1 t : Vec Ideal S1024x1024 .bf16) (ix2 n k))
      (fun d => (iblk m c 2 t : Vec Ideal S512x512 .bf16) (ix2 d h)) ((iblk m c 3 t : Vec Ideal S1x512 .f32) (ix2 (0 : Fin 1) h))
    = entry (fun k d => (V m c main_v0 : S48x1024x512.Idx → EReal) (ix3 (⟨win0_4.index t (0 : Fin 3) * 4 + s.val, by omega⟩ : Fin 48) k d))
      (fun k => (V m c main_v1 : S1024x1024.Idx → EReal) (ix2 n k)) (fun d => (V m c main_v2 : S512x512.Idx → EReal) (ix2 d h))
      ((V m c main_v3 : S1x512.Idx → EReal) (ix2 (0 : Fin 1) h))
  exact entry_congr (fun k d => features_read m c t s k d _ rfl) (fun k => adjacency_read m c t n k)
    (fun d => weights_read m c t d h) (bias_read m c t h)

/-- An index of the output array is in point `t`'s block iff each coordinate is in the block's range on its axis. -/
theorem mem_blk (t : Fin cfg0.N) (i : S48x1024x512.Idx) :
    i ∈ ((cfg0.win 4).blk t).view.set ↔ ∀ a : Fin 3, win0_4.index t a * S4x1024x512.size a ≤ (i a).val ∧ (i a).val < win0_4.index t a * S4x1024x512.size a + S4x1024x512.size a := by
  show i ∈ ((View.whole main_v4).slice (win0_4.rect t)).set ↔ _
  rw [View.set_slice_whole, Rect.mem_set_unit]
  exact Iff.rfl

/-- Every index of the output array is in some point's block: slice `g` is written by the point whose block is `g / 4`. -/
theorem covered (i : S48x1024x512.Idx) : ∃ t : Fin cfg0.N, (cfg0.win 4).flush t = true ∧ i ∈ ((cfg0.win 4).blk t).view.set := by
  have hi0 : (i 0).val < 48 := (i 0).isLt
  have hi1 : (i 1).val < 1024 := (i 1).isLt
  have hi2 : (i 2).val < 512 := (i 2).isLt
  obtain ⟨t, ht⟩ := idx_onto ⟨(i 0).val / 4, by omega⟩
  have q0 : win0_4.index t (0 : Fin 3) = (i 0).val / 4 := congrFun ht 0
  have q1 : win0_4.index t (1 : Fin 3) = 0 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 4 ≤ (i 0).val ∧ (i 0).val < win0_4.index t (0 : Fin 3) * 4 + 4; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 512 ≤ (i 2).val ∧ (i 2).val < win0_4.index t (2 : Fin 3) * 512 + 512; omega

/-- THE OUTPUT ARRAY after the grid is the slices' layer of the arrays as the grid finds them. -/
theorem final (c : Dev nD) : (dats m 0 c).arrAt 4 cfg0.N = entered m c :=
  (dats m 0 c).arrAt_eq_of_cover 4 (entered m c) (fun t _ => flushed_eq m c t) covered

end Cert.ArrayLayer

end
-- ==== Proof.SliceLayout.lean ====
/-
  The host reshapes around the grid: the layer on the 48 slices, read on the natural layout, is the layer.

  The kernel's program flattens the first two axes of the features — slice `12 b + t` of [48, 1024, 512] is (b, t) of
  [4, 12, 1024, 512], both layouts listing entries in the same row-major order —, hands the bias over as one row
  [1, 512], and un-flattens the result the same way. Reading the reshaped result at (b, t, n, h) therefore reads the
  slices' layer at (12 b + t, n, h), whose features are the natural layout's at (b, t, ·, ·): the nested sum is untouched.
-/
import proofs.«110233_g62569083568837_cont_9to1_m_642_26_alg».proof.Proof.Layer
import Idealize.ShloMosaic.Lib.Pipeline.Value
import Idealize.ShloMosaic.Lib.ValueLayout

noncomputable section

namespace Cert.SliceLayout

open Idealize.ShloMosaic Idealize.ShloMosaic.ValueIdx Cert.Layer

/-- The slice that holds (b, t). -/
def slice (b : Fin 4) (t : Fin 12) : Fin 48 := ⟨b.val * 12 + t.val, by have := b.isLt; have := t.isLt; omega⟩

/-- The flattened features at (slice (b, t), k, d) are the natural ones at (b, t, k, d). -/
theorem flat_features (X : SNat.Idx → EReal) (hc : SNat.ShapeCasts SSlices) (b : Fin 4) (t : Fin 12) (k : Fin 1024) (d : Fin 512) :
    shapeCast SSlices X hc (ix3 (slice b t) k d) = X (ix4 b t k d) :=
  shapeCast_apply X hc _ _ (by
    rw [Shape.rowMajor_val_four, Shape.rowMajor_val_three]
    show ((b.val * 12 + t.val) * 1024 + k.val) * 512 + d.val = ((b.val * 12 + t.val) * 1024 + k.val) * 512 + d.val
    rfl)

/-- The slices' layer of the flattened features and the bias row, un-flattened, is the layer. -/
theorem unflatten_layer (X : SNat.Idx → EReal) (A : SAdj.Idx → EReal) (W : SWt.Idx → EReal) (β : SBias.Idx → EReal)
    (hX : SNat.ShapeCasts SSlices) (hβ : SBias.ShapeCasts SBiasRow) (hout : SSlices.ShapeCasts SNat) :
    shapeCast SNat (sliceLayer (shapeCast SSlices X hX) A W (shapeCast SBiasRow β hβ)) hout = layer X A W β := by
  funext i
  obtain ⟨b, t, n, h, rfl⟩ : ∃ (b : Fin 4) (t : Fin 12) (n : Fin 1024) (h : Fin 512), i = ix4 b t n h :=
    ⟨i 0, i 1, i 2, i 3, eq_ix4 i⟩
  refine (shapeCast_apply _ hout (ix4 b t n h) (ix3 (slice b t) n h) (by
    rw [Shape.rowMajor_val_three, Shape.rowMajor_val_four]
    show ((b.val * 12 + t.val) * 1024 + n.val) * 512 + h.val = ((b.val * 12 + t.val) * 1024 + n.val) * 512 + h.val
    rfl)).trans ?_
  show entry (fun k d => shapeCast SSlices X hX (ix3 (slice b t) k d)) (fun k => A (ix2 n k)) (fun d => W (ix2 d h))
      (shapeCast SBiasRow β hβ (ix2 (0 : Fin 1) h))
    = entry (fun k d => X (ix4 b t k d)) (fun k => A (ix2 n k)) (fun d => W (ix2 d h)) (β (ix1 h))
  exact entry_congr (fun k d => flat_features X hX b t k d) (fun _ => rfl) (fun _ => rfl) (shapeCast_a_1a_apply β hβ 0 h)

end Cert.SliceLayout

end
-- ==== Proof.KernelRun.lean ====
/-
  The idealized kernel's run, read: its result is the layer of its four arguments.

  Around the grid the program only re-lays arrays: before it, the features' first two axes are flattened
  ([4, 12, …] to [48, …]), the adjacency and the weights change float format (the identity at the ideal values) and the
  bias becomes one row; after it, the output's first axis is split back ([48, …] to [4, 12, …]). The grid leaves the
  slices' layer of the arrays it was entered with in its output array (`Cert.ArrayLayer.final`), and un-flattening
  the slices' layer of the flattened features is the layer on the natural layout (`Cert.SliceLayout.unflatten_layer`).
-/
import proofs.«110233_g62569083568837_cont_9to1_m_642_26_alg».proof.Proof.ArrayLayer
import proofs.«110233_g62569083568837_cont_9to1_m_642_26_alg».proof.Proof.SliceLayout
import Idealize.ShloMosaic.Lib.StableHlo.Run

set_option maxRecDepth 16384

noncomputable section

namespace Cert.KernelRun

open Idealize.ShloMosaic Idealize.ShloMosaic.TcCoe Idealize.SL.Sem Idealize.ShloMosaic.ValueIdx Idealize.ShloMosaic.StableHlo
open Cert.KernelIdeal Cert.KernelIdeal.Gen Cert.Layer

variable (m : (ℓ : Loc nD τ sig) → Buf (Elt Ideal) ℓ) (ρ : Dev nD → PrngReg)

/-! ## The arrays as the grid finds them -/

/-- The features, their first two axes flattened. -/
theorem entered_features (c : Dev nD) :
    (V m c main_v0 : S48x1024x512.Idx → EReal)
      = shapeCast S48x1024x512 (m ((c : Thread nD τ).loc main_arg0)) shapeCasts_S4x12x1024x512_S48x1024x512 := by
  show StableHlo.after hostOps0 (fun b => m (c, b)) (Proc.devRef .tc main_v0) = _
  after_results
  rfl

/-- The adjacency: a change of float format, the identity at the ideal values. -/
theorem entered_adjacency (c : Dev nD) :
    (V m c main_v1 : S1024x1024.Idx → EReal) = m ((c : Thread nD τ).loc main_arg1) := by
  show StableHlo.after hostOps0 (fun b => m (c, b)) (Proc.devRef .tc main_v1) = _
  after_results
  rfl

/-- The weights: likewise. -/
theorem entered_weights (c : Dev nD) :
    (V m c main_v2 : S512x512.Idx → EReal) = m ((c : Thread nD τ).loc main_arg2) := by
  show StableHlo.after hostOps0 (fun b => m (c, b)) (Proc.devRef .tc main_v2) = _
  after_results
  rfl

/-- The bias as one row. -/
theorem entered_bias (c : Dev nD) :
    (V m c main_v3 : S1x512.Idx → EReal) = shapeCast S1x512 (m ((c : Thread nD τ).loc main_arg3)) shapeCasts_S512_S1x512 := by
  show StableHlo.after hostOps0 (fun b => m (c, b)) (Proc.devRef .tc main_v3) = _
  after_results
  rfl

/-! ## The line after the grid -/

/-- The result buffer holds the grid's output array with its first axis split back. -/
theorem result_unflattened (c : Dev nD) :
    Pipeline.afterTail₀ cfgs (dats m) 0 (V0 m) [hostOps1] c main_v5
      = shapeCast S4x12x1024x512 ((dats m 0 c).arrAt 4 cfg0.N) shapeCasts_S48x1024x512_S4x12x1024x512 := by
  unfold Pipeline.afterTail₀
  show StableHlo.after hostOps1 _ (Proc.devRef .tc main_v5) = _
  after_results
  exact congrArg (fun x => shapeCast S4x12x1024x512 x shapeCasts_S48x1024x512_S4x12x1024x512)
    (Pipeline.withArrays_arr spec0 launch0.win.arr_inj c _ _ 4)

/-- The result buffer holds the layer of the four arguments. -/
theorem result_eq (c : Dev nD) :
    Pipeline.afterTail₀ cfgs (dats m) 0 (V0 m) [hostOps1] c main_v5
      = layer (m ((c : Thread nD τ).loc main_arg0)) (m ((c : Thread nD τ).loc main_arg1)) (m ((c : Thread nD τ).loc main_arg2))
          (m ((c : Thread nD τ).loc main_arg3)) := by
  rw [result_unflattened, Cert.ArrayLayer.final]
  unfold Cert.ArrayLayer.entered
  rw [entered_features, entered_adjacency, entered_weights, entered_bias]
  exact Cert.SliceLayout.unflatten_layer _ _ _ _ _ _ _

/-! ## The run -/

/-- From any memory with zero counters every weakly fair execution of the idealized kernel's program terminates with
    its result at the layer of the four arguments, the arguments unchanged. -/
theorem run : θ_run defs (onTc (τ := τ) (main (F := Ideal))) ⟨m, fun _ => 0, ρ⟩ fun r => ∀ c : Dev nD,
      r.2.mem ((c.tc : Thread nD τ).loc main_v5)
        = layer (m ((c.tc : Thread nD τ).loc main_arg0)) (m ((c.tc : Thread nD τ).loc main_arg1)) (m ((c.tc : Thread nD τ).loc main_arg2))
            (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨((h c).2 main_v5 (Pipeline.mem_restRefs_of main_v5 (by decide) (by decide))).trans (result_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c),
        ((h c).2 main_arg3 (Pipeline.mem_restRefs_of main_arg3 (by decide) (by decide))).trans (W_main_arg3 m (dats m) c)⟩)
    (run_main m ρ)

end Cert.KernelRun

end
-- ==== Proof.lean ====
/- The proof of `Cert.Claim`: a graph-convolution layer computed by a kernel over blocks of four (batch, time) slices
   against the same layer computed by whole-array products on the host.

   Both idealized programs return, at (b, t, n, h),
       (∑ d, (∑ k, A[n, k] · X[b, t, k, d]) · W[d, h]) + bias[h]
   on the extended reals, with the same nesting of the two sums and the same factors in each product (Proof/Layer.lean),
   so they are equal term by term and the finiteness of the inputs is never used:
   · the reference's transposes and reshapes around its two products are renamings of coordinates (Proof/RefLayer.lean);
   · one grid step of the kernel leaves the layer of its four slices in its output block (Proof/BlockLayer.lean), the
     twelve blocks tile the output array (Proof/ArrayLayer.lean), and the reshapes around the grid only flatten and
     split the first two axes (Proof/SliceLayout.lean, Proof/KernelRun.lean).
   The three frames are the programs' runs with the result forgotten; the idealization rewrote no operation, so
   `preserves` has nothing to state. -/
import proofs.«110233_g62569083568837_cont_9to1_m_642_26_alg».proof.Defs
import proofs.«110233_g62569083568837_cont_9to1_m_642_26_alg».proof.Proof.Gen.Kernel
import proofs.«110233_g62569083568837_cont_9to1_m_642_26_alg».proof.Proof.Gen.Kernel.Skeleton
import proofs.«110233_g62569083568837_cont_9to1_m_642_26_alg».proof.Proof.Gen.Kernel.Launch
import proofs.«110233_g62569083568837_cont_9to1_m_642_26_alg».proof.Proof.Gen.Kernel.Points
import proofs.«110233_g62569083568837_cont_9to1_m_642_26_alg».proof.Proof.Gen.Kernel.Frame
import proofs.«110233_g62569083568837_cont_9to1_m_642_26_alg».proof.Proof.Gen.KernelIdeal
import proofs.«110233_g62569083568837_cont_9to1_m_642_26_alg».proof.Proof.Gen.KernelIdeal.Skeleton
import proofs.«110233_g62569083568837_cont_9to1_m_642_26_alg».proof.Proof.Gen.KernelIdeal.Launch
import proofs.«110233_g62569083568837_cont_9to1_m_642_26_alg».proof.Proof.Gen.KernelIdeal.Points
import proofs.«110233_g62569083568837_cont_9to1_m_642_26_alg».proof.Proof.Gen.KernelIdeal.Frame
import proofs.«110233_g62569083568837_cont_9to1_m_642_26_alg».proof.Proof.Gen.ReferenceIdeal
import proofs.«110233_g62569083568837_cont_9to1_m_642_26_alg».proof.Proof.Gen.ReferenceIdeal.Run
import proofs.«110233_g62569083568837_cont_9to1_m_642_26_alg».proof.Proof.Gen.ReferenceIdeal.Read
import proofs.«110233_g62569083568837_cont_9to1_m_642_26_alg».proof.Proof.Gen.Pre_finite_inputs
import proofs.«110233_g62569083568837_cont_9to1_m_642_26_alg».proof.Proof.RefLayer
import proofs.«110233_g62569083568837_cont_9to1_m_642_26_alg».proof.Proof.KernelRun
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The idealized reference runs and keeps its arguments: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with the layer of the (agreeing) arguments in their result. -/
theorem algebraic : Cert.algebraic_KernelIdeal_ReferenceIdeal := by
  intro m ρ m' ρ' _ hagree
  refine ⟨fun c => Cert.Layer.layer (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelRun.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v10_eq, Cert.RefLayer.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
